-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x4096 : Shape := ⟨3, ![8, 8192, 4096]⟩
abbrev S4096 : Shape := ⟨1, ![4096]⟩
abbrev S8192x4096 : Shape := ⟨2, ![8192, 4096]⟩
abbrev S_ : Shape := ⟨0, ![]⟩

class Facts : Prop where
  bcast_S_S8x8192x4096 : S_.BroadcastsInDim S8x8192x4096 (![] : Fin 0 → Fin S8x8192x4096.rank)
  reducesTo_S8x8192x4096_S_d0_1_2 : S8x8192x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S8192x4096 : S_.BroadcastsInDim S8192x4096 (![] : Fin 0 → Fin S8192x4096.rank)
  reducesTo_S8192x4096_S_d0_1 : S8192x4096.ReducesTo [0, 1] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8x8192x4096 .f32) (main_arg1 : FVec F S4096 .f32) (main_arg2 : FVec F S8192x4096 .f32) (main_arg3 : FVec F S4096 .f32) : IVec S_ 1 :=
  let main_v0 : FVec F S8x8192x4096 .f32 := Host.absf main_arg0
  let main_cst : FVec F S_ .f32 := constant S_ .f32 0x7F800000#32
  let main_v1 : FVec F S8x8192x4096 .f32 := broadcastInDim S8x8192x4096 ![] bcast_S_S8x8192x4096 main_cst
  let main_v2 : IVec S8x8192x4096 1 := cmpf .olt main_v0 main_v1
  let main_c : IVec S_ 1 := constantI S_ 1 1#1
  let main_v3 : IVec S_ 1 := (fun x v => Host.reduce IntOp.andi x v reducesTo_S8x8192x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8x8192x4096 : Shape := ⟨3, ![8, 8192, 4096]⟩
abbrev S4096 : Shape := ⟨1, ![4096]⟩
abbrev S8192x4096 : Shape := ⟨2, ![8192, 4096]⟩
abbrev S1x4096 : Shape := ⟨2, ![1, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S8x8192x4096, .f32⟩
  | .hbm, ⟨1, _⟩ => ⟨S4096, .f32⟩
  | .hbm, ⟨2, _⟩ => ⟨S8192x4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | _, _ => ⟨S8x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x8192x4096.size a
  hwx0_0 : ∀ i : grid0.Coords, EltTy.bits .f32 = 32 ∨ (Rect.block (s := S8x8192x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x4096.size a
  hwx0_5 : ∀ i : grid0.Coords, EltTy.bits .f32 = 32 ∨ (Rect.block (s := S8192x4096) S256x4096.size (cc0_transform_5 i) (hinb0_5 i)).WholeWords (EltTy.packing .f32)

variable [Facts₀]

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S256x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x8192x4096 : Shape := ⟨3, ![8, 8192, 4096]⟩
abbrev S4096 : Shape := ⟨1, ![4096]⟩
abbrev S8192x4096 : Shape := ⟨2, ![8192, 4096]⟩
abbrev S_ : Shape := ⟨0, ![]⟩
abbrev S1x4096 : Shape := ⟨2, ![1, 4096]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x8192x4096, .f32⟩
  | .hbm, ⟨1, _⟩ => ⟨S4096, .f32⟩
  | .hbm, ⟨2, _⟩ => ⟨S8192x4096, .f32⟩
  | .hbm, ⟨3, _⟩ => ⟨S4096, .f32⟩
  | .hbm, ⟨4, _⟩ => ⟨S_, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | _, _ => ⟨S8x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S8x8192x4096_S8192x4096_d0 : S8x8192x4096.ReducesTo [0] S8192x4096
  h_S_ : 0 < S_.numel
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)

variable [Facts₀]

class Facts : Prop extends Facts₀ where

variable [Facts]
-- ==== Proof.RowNorm.lean ====
/-
  The specification both programs meet, over the extended reals.

  The arguments are eight shards `X k r c` of a [8192, 4096] array, a bias `B c`, a residual `R r c` and a
  weight `W c`.  For a token row `r` and a hidden column `c` write

    pre r c    =  (X 0 r c + X 1 r c + ... + X 7 r c) + B c + R r c

  for the sum of the shards, the bias and the residual, and

    scale r    =  rsqrt ((sum over c of pre r c * pre r c) / 4096 + eps)

  for the reciprocal root of the row's mean square plus the stabiliser.  The two results are

    second result  r c  =  pre r c
    first result   r c  =  pre r c * scale r * W c.

  Addition of extended reals is commutative and associative, so the order in which the eight shards are added
  does not matter: a running sum that starts at zero and adds shard 0, then shard 1, ..., then shard 7 ends at the
  same value as the sum over all eight taken at once (`runningSum_last`).  No entry has to be finite for that.
-/
import Idealize.ShloMosaic.PureOps.Ideal
import Idealize.ShloMosaic.PureOps.Ideal.Laws
import Idealize.ShloMosaic.Lib.ValueIdx

noncomputable section

open scoped BigOperators

namespace Cert.RowNorm

open Idealize.ShloMosaic Idealize.ShloMosaic.ValueIdx

/-- The eight shards, stacked. -/
abbrev Shards : Type := (⟨3, ![8, 8192, 4096]⟩ : Shape).Idx → EReal
/-- A vector over the hidden columns (the bias, the weight). -/
abbrev Cols : Type := (⟨1, ![4096]⟩ : Shape).Idx → EReal
/-- A [tokens, hidden] array (the residual, each result). -/
abbrev Grid : Type := (⟨2, ![8192, 4096]⟩ : Shape).Idx → EReal

/-- The divisor of the mean: the number of hidden columns, 4096, as the float both programs spell. -/
abbrev nCols : EReal := Ideal.ofBits .f32 0x45800000#32
/-- The stabiliser added under the root, as the float both programs spell. -/
abbrev eps : EReal := Ideal.ofBits .f32 0x358637BD#32

/-- Shard `k`'s entry at `(r, c)`, for any natural `k`: zero past the last shard. -/
def shard (X : Shards) (k : ℕ) (r : Fin 8192) (c : Fin 4096) : EReal :=
  if h : k < 8 then X (ix3 ⟨k, h⟩ r c) else 0

/-- Inside the range a shard's entry is the array's. -/
theorem shard_of_lt (X : Shards) (k : Fin 8) (r : Fin 8192) (c : Fin 4096) : shard X k.val r c = X (ix3 k r c) :=
  dif_pos k.isLt

/-- The sum of shards `0 .. j` at `(r, c)`: what the running sum holds after shard `j` has been added. -/
def runningSum (X : Shards) (j : ℕ) (r : Fin 8192) (c : Fin 4096) : EReal :=
  ∑ k ∈ Finset.range (j + 1), shard X k r c

/-- The running sum starts at zero plus shard 0. -/
theorem runningSum_zero (X : Shards) (r : Fin 8192) (c : Fin 4096) : (0 : EReal) + shard X 0 r c = runningSum X 0 r c := by
  unfold runningSum
  rw [Finset.sum_range_one, zero_add]

/-- Adding the next shard moves the running sum on by one. -/
theorem runningSum_succ (X : Shards) (j : ℕ) (r : Fin 8192) (c : Fin 4096) :
    runningSum X j r c + shard X (j + 1) r c = runningSum X (j + 1) r c := by
  unfold runningSum
  rw [Finset.sum_range_succ _ (j + 1)]

/-- After the last shard the running sum is the sum over all eight. -/
theorem runningSum_last (X : Shards) (r : Fin 8192) (c : Fin 4096) : runningSum X 7 r c = ∑ k : Fin 8, X (ix3 k r c) := by
  unfold runningSum
  rw [Finset.sum_range]
  exact Finset.sum_congr rfl fun k _ => shard_of_lt X k r c

/-- The sum of the shards, the bias and the residual. -/
def pre (X : Shards) (B : Cols) (R : Grid) (r : Fin 8192) (c : Fin 4096) : EReal :=
  (∑ k : Fin 8, X (ix3 k r c)) + B (ix1 c) + R (ix2 r c)

/-- The reciprocal root of a row's mean square plus the stabiliser. -/
def scale (X : Shards) (B : Cols) (R : Grid) (r : Fin 8192) : EReal :=
  Ideal.rsqrt (Ideal.div (∑ c : Fin 4096, pre X B R r c * pre X B R r c) nCols + eps)

/-- The second result: the sum before normalisation. -/
def summed (X : Shards) (B : Cols) (R : Grid) : Grid := fun i => pre X B R (i 0) (i 1)

/-- The first result: the sum, scaled by its row's reciprocal root mean square, times the weight. -/
def normed (X : Shards) (B : Cols) (R : Grid) (W : Cols) : Grid :=
  fun i => pre X B R (i 0) (i 1) * scale X B R (i 0) * W (ix1 (i 1))

end Cert.RowNorm

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.BodyValues.lean ====
/-
  The four values the kernel body stores, each read at one entry `(p, q)` of its [256, 4096] block, over the
  extended reals.

    reset          the block of zeros stored when a row tile's first shard arrives
    accumulate     what the accumulator holds, plus the shard's entry at `(p, q)`
    summed         the accumulator plus the bias at column `q` plus the residual at `(p, q)`
    normed         `summed` at `(p, q)`, times the row's scale, times the weight at column `q`

  where the scale of row `p` is `rsqrt ((sum over k of summed p k * summed p k) / 4096 + eps)`: the lane sum of
  the squares, viewed as a column, divided by the column of 4096s, plus the column of stabilisers, under the
  reciprocal root, spread back over the row.
-/
import proofs.«167513_j56994216018563_2_alg».proof.Proof.Gen.KernelIdeal.Skeleton
import proofs.«167513_j56994216018563_2_alg».proof.Proof.LibKeepdims
import Idealize.ShloMosaic.Lib.Pipeline.Value
import Idealize.ShloMosaic.Lib.ValueIdx
import Idealize.ShloMosaic.Lib.ValueLayout

noncomputable section

open scoped BigOperators

namespace Cert.KernelIdeal.BodyValues

open Cert.KernelIdeal Cert.KernelIdeal.Gen Idealize.ShloMosaic Idealize.ShloMosaic.ValueIdx Cert.LibKeepdims

/-- The reset value is zero at every entry. -/
theorem reset_apply (p : Fin 256) (q : Fin 4096) : k0_pay1 (F := Ideal) (ix2 p q) = 0 := by
  unfold k0_pay1
  exact (congrFun (shapeCast_self _ _) (ix2 p q)).trans Ideal.ofBits_zero_f32

/-- One accumulation step: the accumulator's entry plus the shard block's entry of the same row and column (the
    shard block carries a leading axis of extent one). -/
theorem accumulate_apply (acc : S256x4096.Idx → EReal) (x : S1x256x4096.Idx → EReal) (p : Fin 256) (q : Fin 4096) :
    k0_pay2 (F := Ideal) acc x (ix2 p q) = acc (ix2 p q) + x (ix3 (0 : Fin 1) p q) := by
  unfold k0_pay2
  refine (congrFun (shapeCast_self _ _) (ix2 p q)).trans ?_
  exact congrArg (acc (ix2 p q) + ·) (shapeCast_1ab_ab_apply x _ p q)

/-- A one-row block spread over the rows of the tile reads its entry of the same column. -/
theorem row_spread_apply (b : S1x4096.Idx → EReal) (p : Fin 256) (q : Fin 4096) :
    broadcastTo S256x4096 (shapeCast S1x4096 b shapeCasts_S1x4096_S1x4096) broadcasts_S1x4096_S256x4096 (ix2 p q)
      = b (ix2 (0 : Fin 1) q) :=
  (broadcastTo_1b_ab_apply _ _ p q).trans (congrFun (shapeCast_self b _) _)

/-- The sum before normalisation: accumulator plus bias plus residual. -/
theorem summed_apply (acc : S256x4096.Idx → EReal) (b : S1x4096.Idx → EReal) (res : S256x4096.Idx → EReal)
    (p : Fin 256) (q : Fin 4096) :
    k0_pay3 (F := Ideal) acc b res (ix2 p q) = acc (ix2 p q) + b (ix2 (0 : Fin 1) q) + res (ix2 p q) := by
  unfold k0_pay3
  exact congrArg (fun z => acc (ix2 p q) + z + res (ix2 p q)) (row_spread_apply b p q)

/-- The scale of row `p` of a block `P`: the reciprocal root of the row's mean square plus the stabiliser. -/
def rowScale (P : S256x4096.Idx → EReal) (p : Fin 256) : EReal :=
  Ideal.rsqrt (Ideal.div (∑ k : Fin 4096, P (ix2 p k) * P (ix2 p k)) (Ideal.ofBits .f32 0x45800000#32)
    + Ideal.ofBits .f32 0x358637BD#32)

/-- The body's column of scales, read at row `p`, is `rowScale`: the lane sum of the squares is the sum over the
    columns, and the column view, the division, the addition and the root act entry by entry. -/
theorem scale_column_apply (P : FVec Ideal S256x4096 .f32) (hφ : FKind.Formats .f32)
    (hacc : (0x00000000#32 : BitVec 32) = FKind.add.neutral .f32 hφ) (p : Fin 256) :
    rsqrt (addf (divf (shapeCast S256x1 (multiReduction .add [1] S256 (mulf P P) 0x00000000#32 reduces_S256x4096_S256 hφ hacc)
        shapeCasts_S256_S256x1) (broadcast S256x1 (Scalar.ofBits (F := Ideal) .f32 0x45800000#32)))
      (broadcast S256x1 (Scalar.ofBits (F := Ideal) .f32 0x358637BD#32))) (ix2 p (0 : Fin 1)) = rowScale P p := by
  have e : shapeCast S256x1 (multiReduction .add [1] S256 (mulf P P) 0x00000000#32 reduces_S256x4096_S256 hφ hacc)
      shapeCasts_S256_S256x1 (ix2 p (0 : Fin 1)) = ∑ k : Fin 4096, P (ix2 p k) * P (ix2 p k) :=
    (shapeCast_a_a1_apply _ _ p 0).trans (multiReduction_add_rows_apply (mulf P P) _ hφ hacc p)
  exact congrArg (fun z => Ideal.rsqrt (Ideal.div z (Ideal.ofBits .f32 0x45800000#32) + Ideal.ofBits .f32 0x358637BD#32)) e

/-- The normalised value: the sum, times its row's scale, times the weight of its column. -/
theorem normed_apply (acc : S256x4096.Idx → EReal) (b : S1x4096.Idx → EReal) (res : S256x4096.Idx → EReal)
    (w : S1x4096.Idx → EReal) (p : Fin 256) (q : Fin 4096) :
    k0_pay4 (F := Ideal) acc b res w (ix2 p q)
      = k0_pay3 (F := Ideal) acc b res (ix2 p q) * rowScale (k0_pay3 (F := Ideal) acc b res) p * w (ix2 (0 : Fin 1) q) := by
  unfold k0_pay4
  refine congrArg₂ (· * ·) (congrArg (k0_pay3 (F := Ideal) acc b res (ix2 p q) * ·) ?_) (row_spread_apply w p q)
  exact (broadcastTo_a1_ab_apply _ _ p q).trans (scale_column_apply _ _ _ p)

end Cert.KernelIdeal.BodyValues

end
-- ==== Proof.Pieces.lean ====
/-
  What each of the body's three control cases leaves behind, as the body's own stored values.

  A grid point is a pair (row tile, shard).  The body behaves in three ways:
    first shard    the accumulator is reset to zeros, then the shard's block is added to it;
    middle shards  the shard's block is added to what the accumulator held;
    last shard     the same addition, and then the accumulator, just stored, is read back to form the two results:
                   the sum with bias and residual goes to the second output's block, its normalised value to the
                   first output's block.
  In every case each buffer is written by stores that cover it whole, and every load reads a whole buffer, so what
  a buffer ends up holding is the value of its last store, with each load replaced by the contents it read.
-/
import proofs.«167513_j56994216018563_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First shard: the accumulator ends at zeros plus the shard's block. -/
theorem acc_first (c : Dev nD) (i : grid0.Coords) (arg2 : Memref sig .tc .vmem S1x256x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x4096 .f32) (harg8 : arg8.IsWhole) (hc0 : cond0_0 i) (hc1 : ¬cond0_1 i) (x0 : Vec F S1x256x4096 .f32) (x1 : Vec F S1x4096 .f32) (x2 : Vec F S256x4096 .f32) (x3 : Vec F S1x4096 .f32) :
    sout0_A_0 c i arg2 harg2 arg3 harg3 arg4 harg4 arg5 harg5 arg6 harg6 arg7 harg7 arg8 harg8 hc0 hc1 x0 x1 x2 x3 = k0_pay2 (k0_pay1 (F := F)) x0 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S256x4096) hz2, View.readCov_unit_zero (S := S256x4096) _ hz2]
  simp only [View.readAt_eq_ld, harg2.read_unread, View.ld_unit_zero (S := S1x256x4096) hz3]

/-- Middle shards: the accumulator ends at what it held plus the shard's block. -/
theorem acc_middle (c : Dev nD) (i : grid0.Coords) (arg2 : Memref sig .tc .vmem S1x256x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x4096 .f32) (harg8 : arg8.IsWhole) (hc0 : ¬cond0_0 i) (hc1 : ¬cond0_1 i) (x0 : Vec F S1x256x4096 .f32) (x1 : Vec F S1x4096 .f32) (x2 : Vec F S256x4096 .f32) (x3 : Vec F S1x4096 .f32) (xs0 : Vec F S256x4096 .f32) :
    sout0_B_0 c i arg2 harg2 arg3 harg3 arg4 harg4 arg5 harg5 arg6 harg6 arg7 harg7 arg8 harg8 hc0 hc1 x0 x1 x2 x3 xs0 = k0_pay2 xs0 x0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  unfold kernelRun0_B
  dsimp only
  rw [View.canon_unit_zero hz2]
  simp only [View.readAt_eq_ld, harg8.read_unread, harg2.read_unread, View.ld_unit_zero (S := S256x4096) hz2,
    View.ld_unit_zero (S := S1x256x4096) hz3]

/-- Last shard: the accumulator ends at what it held plus the shard's block, as at a middle shard. -/
theorem acc_last (c : Dev nD) (i : grid0.Coords) (arg2 : Memref sig .tc .vmem S1x256x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x4096 .f32) (harg8 : arg8.IsWhole) (hc0 : ¬cond0_0 i) (hc1 : cond0_1 i) (x0 : Vec F S1x256x4096 .f32) (x1 : Vec F S1x4096 .f32) (x2 : Vec F S256x4096 .f32) (x3 : Vec F S1x4096 .f32) (xs0 : Vec F S256x4096 .f32) :
    sout0_C_0 c i arg2 harg2 arg3 harg3 arg4 harg4 arg5 harg5 arg6 harg6 arg7 harg7 arg8 harg8 hc0 hc1 x0 x1 x2 x3 xs0 = k0_pay2 xs0 x0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg8.read_unread, harg2.read_unread, View.ld_unit_zero (S := S256x4096) hz2,
    View.ld_unit_zero (S := S1x256x4096) hz3]

/-- Last shard: the second output's block ends at the finished accumulator plus bias plus residual. -/
theorem summed_last (c : Dev nD) (i : grid0.Coords) (arg2 : Memref sig .tc .vmem S1x256x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x4096 .f32) (harg8 : arg8.IsWhole) (hc0 : ¬cond0_0 i) (hc1 : cond0_1 i) (x0 : Vec F S1x256x4096 .f32) (x1 : Vec F S1x4096 .f32) (x2 : Vec F S256x4096 .f32) (x3 : Vec F S1x4096 .f32) (xs0 : Vec F S256x4096 .f32) :
    out0_C_5 c i arg2 harg2 arg3 harg3 arg4 harg4 arg5 harg5 arg6 harg6 arg7 harg7 arg8 harg8 hc0 hc1 x0 x1 x2 x3 xs0 = k0_pay3 (k0_pay2 xs0 x0) x1 x2 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz2, View.readCov_unit_zero (S := S256x4096) _ hz2]
  simp only [View.readAt_eq_ld, harg8.read_unread, harg2.read_unread, harg3.read_unread, harg4.read_unread,
    View.ld_unit_zero (S := S256x4096) hz2, View.ld_unit_zero (S := S1x256x4096) hz3, View.ld_unit_zero (S := S1x4096) hz2]

/-- Last shard: the first output's block ends at the normalised value of the same sum. -/
theorem normed_last (c : Dev nD) (i : grid0.Coords) (arg2 : Memref sig .tc .vmem S1x256x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x4096 .f32) (harg8 : arg8.IsWhole) (hc0 : ¬cond0_0 i) (hc1 : cond0_1 i) (x0 : Vec F S1x256x4096 .f32) (x1 : Vec F S1x4096 .f32) (x2 : Vec F S256x4096 .f32) (x3 : Vec F S1x4096 .f32) (xs0 : Vec F S256x4096 .f32) :
    out0_C_4 c i arg2 harg2 arg3 harg3 arg4 harg4 arg5 harg5 arg6 harg6 arg7 harg7 arg8 harg8 hc0 hc1 x0 x1 x2 x3 xs0 = k0_pay4 (k0_pay2 xs0 x0) x1 x2 x3 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz2, View.readCov_unit_zero (S := S256x4096) _ hz2]
  simp only [View.readAt_eq_ld, harg8.read_unread, harg2.read_unread, harg3.read_unread, harg4.read_unread, harg5.read_unread,
    View.ld_unit_zero (S := S256x4096) hz2, View.ld_unit_zero (S := S1x256x4096) hz3, View.ld_unit_zero (S := S1x4096) hz2]

end Cert.KernelIdeal.Pieces

end
-- ==== Proof.Blocks.lean ====
/-
  The input blocks the body is handed at a grid point, entry by entry, as entries of the argument arrays.

  The grid has 32 row tiles of 256 rows, and 8 shards per tile; point `t` is tile `t / 8`, shard `t % 8`.  At
  point `t` the shard window shows rows `256 * (t / 8) ..` of shard `t % 8`, the residual window the same rows
  of the residual, and the bias and weight windows the whole one-row arrays that the program makes from the bias and the
  weight vectors before the kernel starts.  A block's entry `y` sits in its array at block index times block size
  plus `y`, axis by axis.
-/
import proofs.«167513_j56994216018563_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- Where each window's block sits at point `t`, decided once over the 256 points: the shard window at
    (shard, tile, 0); the residual window and both output windows at (tile, 0); the bias and weight windows at (0, 0). -/
theorem idx_facts : ∀ t : Fin cfg0.N,
    win0_0.index t (0 : Fin 3) = t.val % 8 ∧ win0_0.index t (1 : Fin 3) = t.val / 8 ∧ win0_0.index t (2 : Fin 3) = 0
    ∧ win0_1.index t (0 : Fin 2) = 0 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

/-- The shard window's block at point `t`: entry `(u, p, q)` is the shard array's entry at shard `t % 8`, row
    `256 * (t / 8) + p`, column `q`. -/
theorem shard_block_apply (c : Dev nD) (t : Fin cfg0.N) (u : Fin 1) (p : Fin 256) (q : Fin 4096) (k : Fin 8) (r : Fin 8192)
    (hk : k.val = t.val % 8) (hr : r.val = 256 * (t.val / 8) + p.val) :
    (iblk m c 0 t : Vec F S1x256x4096 .f32) (ix3 u p q) = m ((c : Thread nD τ).loc main_arg0) (ix3 k r q) := by
  obtain ⟨e0, e1, e2, -⟩ := idx_facts t
  have hu : u.val = 0 := by omega
  unfold iblk
  rw [View.read_apply]
  show V m c main_arg0 (((cfg0.win 0).blk t).view.emb (ix3 u p q)) = _
  rw [V_main_arg0 m c]
  refine congrArg (m ((c : Thread nD τ).loc main_arg0)) ?_
  funext a
  apply Fin.ext
  match a with
  | ⟨0, _⟩ => show win0_0.index t (0 : Fin 3) * 1 + 1 * u.val = k.val; omega
  | ⟨1, _⟩ => show win0_0.index t (1 : Fin 3) * 256 + 1 * p.val = r.val; omega
  | ⟨2, _⟩ => show win0_0.index t (2 : Fin 3) * 4096 + 1 * q.val = q.val; omega

/-- The residual window's block at point `t`: entry `(p, q)` is the residual's entry at row `256 * (t / 8) + p`,
    column `q`. -/
theorem residual_block_apply (c : Dev nD) (t : Fin cfg0.N) (p : Fin 256) (q : Fin 4096) (r : Fin 8192)
    (hr : r.val = 256 * (t.val / 8) + p.val) :
    (iblk m c 2 t : Vec F S256x4096 .f32) (ix2 p q) = m ((c : Thread nD τ).loc main_arg2) (ix2 r q) := by
  obtain ⟨-, -, -, -, -, e0, e1, -⟩ := idx_facts t
  unfold iblk
  rw [View.read_apply]
  show V m c main_arg2 (((cfg0.win 2).blk t).view.emb (ix2 p q)) = _
  rw [V_main_arg2 m c]
  refine congrArg (m ((c : Thread nD τ).loc main_arg2)) ?_
  funext a
  apply Fin.ext
  match a with
  | ⟨0, _⟩ => show win0_2.index t (0 : Fin 2) * 256 + 1 * p.val = r.val; omega
  | ⟨1, _⟩ => show win0_2.index t (1 : Fin 2) * 4096 + 1 * q.val = q.val; omega

/-- Before the kernel starts the program views the bias vector as a one-row array; that is what the bias window's
    array holds when the kernel is entered. -/
theorem bias_row_eq (c : Dev nD) :
    (V m c main_call0_v0 : S1x4096.Idx → Elt F .f32)
      = shapeCast S1x4096 (m ((c : Thread nD τ).loc main_arg1)) shapeCasts_S4096_S1x4096 := by
  dsimp only [Gen.V, Gen.hostOps0]
  after_results
  rfl

/-- Likewise the weight vector, for the weight window. -/
theorem weight_row_eq (c : Dev nD) :
    (V m c main_call0_v1 : S1x4096.Idx → Elt F .f32)
      = shapeCast S1x4096 (m ((c : Thread nD τ).loc main_arg3)) shapeCasts_S4096_S1x4096 := by
  dsimp only [Gen.V, Gen.hostOps0]
  after_results
  rfl

/-- The bias window's block at any point: entry `(u, q)` is the bias at column `q`. -/
theorem bias_block_apply (c : Dev nD) (t : Fin cfg0.N) (u : Fin 1) (q : Fin 4096) :
    (iblk m c 1 t : Vec F S1x4096 .f32) (ix2 u q) = m ((c : Thread nD τ).loc main_arg1) (ix1 q) := by
  obtain ⟨-, -, -, e0, e1, -⟩ := idx_facts t
  have hu : u.val = 0 := by omega
  unfold iblk
  rw [View.read_apply]
  show V m c main_call0_v0 (((cfg0.win 1).blk t).view.emb (ix2 u q)) = _
  rw [bias_row_eq m c]
  refine (congrArg _ ?_).trans (shapeCast_a_1a_apply _ _ (0 : Fin 1) q)
  funext a
  apply Fin.ext
  match a with
  | ⟨0, _⟩ => show win0_1.index t (0 : Fin 2) * 1 + 1 * u.val = 0; omega
  | ⟨1, _⟩ => show win0_1.index t (1 : Fin 2) * 4096 + 1 * q.val = q.val; omega

/-- The weight window's block at any point: entry `(u, q)` is the weight at column `q`. -/
theorem weight_block_apply (c : Dev nD) (t : Fin cfg0.N) (u : Fin 1) (q : Fin 4096) :
    (iblk m c 3 t : Vec F S1x4096 .f32) (ix2 u q) = m ((c : Thread nD τ).loc main_arg3) (ix1 q) := by
  obtain ⟨-, -, -, -, -, -, -, e0, e1, -⟩ := idx_facts t
  have hu : u.val = 0 := by omega
  unfold iblk
  rw [View.read_apply]
  show V m c main_call0_v1 (((cfg0.win 3).blk t).view.emb (ix2 u q)) = _
  rw [weight_row_eq m c]
  refine (congrArg _ ?_).trans (shapeCast_a_1a_apply _ _ (0 : Fin 1) q)
  funext a
  apply Fin.ext
  match a with
  | ⟨0, _⟩ => show win0_3.index t (0 : Fin 2) * 1 + 1 * u.val = 0; omega
  | ⟨1, _⟩ => show win0_3.index t (1 : Fin 2) * 4096 + 1 * q.val = q.val; omega

end Cert.KernelIdeal.Blocks

end
-- ==== Proof.Accumulator.lean ====
/-
  The accumulator along a row tile's eight grid points, and the two blocks the last of them produces.

  Point `t` of the grid is row tile `t / 8`, shard `t % 8`; the points of one tile are consecutive.  The
  accumulator is carried from each point to the next.  At a tile's first point it ends at zero plus shard 0's
  block; at every later point at what the point before left plus that point's shard block.  So after point `t`
  its entry `(p, q)` is the sum of shards `0 .. t % 8` at row `256 * (t / 8) + p`, column `q`
  (`acc_apply`, by induction on the point: a tile's first point starts a new sum, any other point extends the
  previous point's sum by one shard).  At a tile's last point, shard 7, that is the sum over all eight shards, and the
  body forms from it the sum with bias and residual (`summed_entry`) and its normalised value (`normed_entry`).
-/
import proofs.«167513_j56994216018563_2_alg».proof.Proof.Gen.KernelIdeal.Frame
import proofs.«167513_j56994216018563_2_alg».proof.Proof.RowNorm
import proofs.«167513_j56994216018563_2_alg».proof.Proof.BodyValues
import proofs.«167513_j56994216018563_2_alg».proof.Proof.Pieces
import proofs.«167513_j56994216018563_2_alg».proof.Proof.Blocks

noncomputable section

open scoped BigOperators

namespace Cert.KernelIdeal.Accumulator

open Cert.KernelIdeal Cert.KernelIdeal.Gen Idealize.ShloMosaic Idealize.ShloMosaic.TcCoe Idealize.SL.Sem
open Idealize.ShloMosaic.ValueIdx
open Cert.RowNorm Cert.KernelIdeal.BodyValues Cert.KernelIdeal.Blocks

/-! ## The steps, for any float values -/

section Steps

variable {F : FTy → Type} [FloatOps F]
variable (m : (ℓ : Loc nD τ sig) → Buf (Elt F) ℓ)

/-- At a tile's first point the accumulator ends at the zero block plus the shard's block. -/
theorem acc_first_point (c : Dev nD) (t : Fin cfg0.N) (h0 : t.val % 8 = 0) :
    (outsAt0 m c t.val t.isLt).2.2 = k0_pay2 (k0_pay1 (F := F)) (iblk m c 0 t) := by
  have h1 : ¬t.val % 8 = 7 := by omega
  rw [outsAt0_A m c t h0 h1]
  dsimp only
  exact Pieces.acc_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)

/-- At any other point it ends at what the point before left plus the shard's block. -/
theorem acc_later_point (c : Dev nD) (t : Fin cfg0.N) (h0 : ¬t.val % 8 = 0) :
    (outsAt0 m c t.val t.isLt).2.2 = k0_pay2 ((outsAt0 m c (t.val - 1) (Nat.lt_of_le_of_lt (Nat.sub_le _ _) t.isLt)).2.2) (iblk m c 0 t) := by
  by_cases h1 : t.val % 8 = 7
  · rw [outsAt0_C m c t h0 h1]
    dsimp only
    exact Pieces.acc_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) ((outsAt0 m c (t.val - 1) (Nat.lt_of_le_of_lt (Nat.sub_le _ _) t.isLt)).2.2)
  · rw [outsAt0_B m c t h0 h1]
    dsimp only
    exact Pieces.acc_middle (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) ((outsAt0 m c (t.val - 1) (Nat.lt_of_le_of_lt (Nat.sub_le _ _) t.isLt)).2.2)

/-- At a tile's last point the second output's block is the sum of the accumulator as that point leaves it, the bias
    and the residual; here with the accumulator spelt as the previous point's plus the shard's block. -/
theorem summed_last_raw (c : Dev nD) (t : Fin cfg0.N) (h1 : t.val % 8 = 7) :
    (outsAt0 m c t.val t.isLt).2.1 = k0_pay3 (k0_pay2 ((outsAt0 m c (t.val - 1) (Nat.lt_of_le_of_lt (Nat.sub_le _ _) t.isLt)).2.2) (iblk m c 0 t)) (iblk m c 1 t) (iblk m c 2 t) := by
  have h0 : ¬t.val % 8 = 0 := by omega
  rw [outsAt0_C m c t h0 h1]
  dsimp only
  exact Pieces.summed_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) ((outsAt0 m c (t.val - 1) (Nat.lt_of_le_of_lt (Nat.sub_le _ _) t.isLt)).2.2)

/-- The same with the accumulator named as what the point leaves in it. -/
theorem summed_last_point (c : Dev nD) (t : Fin cfg0.N) (h1 : t.val % 8 = 7) :
    (outsAt0 m c t.val t.isLt).2.1 = k0_pay3 ((outsAt0 m c t.val t.isLt).2.2) (iblk m c 1 t) (iblk m c 2 t) := by
  have h0 : ¬t.val % 8 = 0 := by omega
  rw [acc_later_point m c t h0]
  exact summed_last_raw m c t h1

/-- At a tile's last point the first output's block is the normalised value of that sum; the accumulator spelt as the
    previous point's plus the shard's block. -/
theorem normed_last_raw (c : Dev nD) (t : Fin cfg0.N) (h1 : t.val % 8 = 7) :
    (outsAt0 m c t.val t.isLt).1
      = k0_pay4 (k0_pay2 ((outsAt0 m c (t.val - 1) (Nat.lt_of_le_of_lt (Nat.sub_le _ _) t.isLt)).2.2) (iblk m c 0 t)) (iblk m c 1 t) (iblk m c 2 t) (iblk m c 3 t) := by
  have h0 : ¬t.val % 8 = 0 := by omega
  rw [outsAt0_C m c t h0 h1]
  dsimp only
  exact Pieces.normed_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) ((outsAt0 m c (t.val - 1) (Nat.lt_of_le_of_lt (Nat.sub_le _ _) t.isLt)).2.2)

/-- The same with the accumulator named as what the point leaves in it. -/
theorem normed_last_point (c : Dev nD) (t : Fin cfg0.N) (h1 : t.val % 8 = 7) :
    (outsAt0 m c t.val t.isLt).1
      = k0_pay4 ((outsAt0 m c t.val t.isLt).2.2) (iblk m c 1 t) (iblk m c 2 t) (iblk m c 3 t) := by
  have h0 : ¬t.val % 8 = 0 := by omega
  rw [acc_later_point m c t h0]
  exact normed_last_raw m c t h1

end Steps

/-! ## The values, over the extended reals -/

variable (m : (ℓ : Loc nD τ sig) → Buf (Elt Ideal) ℓ)

/-- The argument arrays on core `c`. -/
abbrev shards (c : Dev nD) : Shards := m ((c : Thread nD τ).loc main_arg0)
abbrev bias (c : Dev nD) : Cols := m ((c : Thread nD τ).loc main_arg1)
abbrev residual (c : Dev nD) : Grid := m ((c : Thread nD τ).loc main_arg2)
abbrev weight (c : Dev nD) : Cols := m ((c : Thread nD τ).loc main_arg3)

/-- Row `p` of row tile `i`, as a row of the whole array. -/
def tileRow (i : ℕ) (p : Fin 256) : Fin 8192 := ⟨(256 * i + p.val) % 8192, Nat.mod_lt _ (by decide)⟩

theorem tileRow_val (n : ℕ) (hn : n < 256) (p : Fin 256) : (tileRow (n / 8) p).val = 256 * (n / 8) + p.val := by
  have hp : p.val < 256 := p.isLt
  show (256 * (n / 8) + p.val) % 8192 = _
  omega

/-- After a tile's first point the accumulator holds shard 0. -/
theorem acc_step_first (c : Dev nD) (t : Fin cfg0.N) (h0 : t.val % 8 = 0) (p : Fin 256) (q : Fin 4096) :
    (outsAt0 m c t.val t.isLt).2.2 (ix2 p q) = runningSum (shards m c) 0 (tileRow (t.val / 8) p) q := by
  have hN : t.val < 256 := lt_of_lt_of_eq t.isLt N_0
  have hk : t.val % 8 < 8 := Nat.mod_lt _ (by decide)
  refine (congrFun (acc_first_point m c t h0) (ix2 p q)).trans ?_
  refine (accumulate_apply _ (iblk m c 0 t) p q).trans ?_
  refine (congrArg₂ (· + ·) (reset_apply p q)
    (shard_block_apply m c t 0 p q ⟨t.val % 8, hk⟩ (tileRow (t.val / 8) p) rfl (tileRow_val t.val hN p))).trans ?_
  refine (congrArg ((0 : EReal) + ·) ?_).trans (runningSum_zero (shards m c) (tileRow (t.val / 8) p) q)
  have e : (⟨t.val % 8, hk⟩ : Fin 8) = (0 : Fin 8) := Fin.ext h0
  rw [e]
  exact (shard_of_lt (shards m c) (0 : Fin 8) (tileRow (t.val / 8) p) q).symm

/-- After any other point the accumulator holds one shard more than after the point before. -/
theorem acc_step_later (c : Dev nD) (t : Fin cfg0.N) (h0 : ¬t.val % 8 = 0) (p : Fin 256) (q : Fin 4096)
    (ih : ((outsAt0 m c (t.val - 1) (Nat.lt_of_le_of_lt (Nat.sub_le _ _) t.isLt)).2.2) (ix2 p q) = runningSum (shards m c) ((t.val - 1) % 8) (tileRow ((t.val - 1) / 8) p) q) :
    (outsAt0 m c t.val t.isLt).2.2 (ix2 p q) = runningSum (shards m c) (t.val % 8) (tileRow (t.val / 8) p) q := by
  have hN : t.val < 256 := lt_of_lt_of_eq t.isLt N_0
  have hk : t.val % 8 < 8 := Nat.mod_lt _ (by decide)
  have hj : (t.val - 1) % 8 + 1 = t.val % 8 := by omega
  have hd : (t.val - 1) / 8 = t.val / 8 := by omega
  rw [hd] at ih
  refine (congrFun (acc_later_point m c t h0) (ix2 p q)).trans ?_
  refine (accumulate_apply _ (iblk m c 0 t) p q).trans ?_
  refine (congrArg₂ (· + ·) ih
    (shard_block_apply m c t 0 p q ⟨t.val % 8, hk⟩ (tileRow (t.val / 8) p) rfl (tileRow_val t.val hN p))).trans ?_
  have key := runningSum_succ (shards m c) ((t.val - 1) % 8) (tileRow (t.val / 8) p) q
  rw [hj] at key
  exact (congrArg (runningSum (shards m c) ((t.val - 1) % 8) (tileRow (t.val / 8) p) q + ·)
    (shard_of_lt (shards m c) ⟨t.val % 8, hk⟩ (tileRow (t.val / 8) p) q).symm).trans key

/-- THE ACCUMULATOR after point `n`: the sum of shards `0 .. n % 8` over the rows of tile `n / 8`. -/
theorem acc_apply (c : Dev nD) : ∀ (n : ℕ) (h : n < cfg0.N) (p : Fin 256) (q : Fin 4096),
    (outsAt0 m c n h).2.2 (ix2 p q) = runningSum (shards m c) (n % 8) (tileRow (n / 8) p) q
  | 0, h, p, q => acc_step_first m c ⟨0, h⟩ (Nat.zero_mod 8) p q
  | n + 1, h, p, q => by
    by_cases h0 : (n + 1) % 8 = 0
    · rw [h0]
      exact acc_step_first m c ⟨n + 1, h⟩ h0 p q
    · exact acc_step_later m c ⟨n + 1, h⟩ h0 p q (acc_apply c n (Nat.lt_of_succ_lt h) p q)

/-- At a tile's last point: the sum of all eight shards, the bias and the residual, entry by entry. -/
theorem summed_entry (c : Dev nD) (t : Fin cfg0.N) (h1 : t.val % 8 = 7) (p : Fin 256) (q : Fin 4096) :
    k0_pay3 (F := Ideal) ((outsAt0 m c t.val t.isLt).2.2) (iblk m c 1 t) (iblk m c 2 t) (ix2 p q)
      = pre (shards m c) (bias m c) (residual m c) (tileRow (t.val / 8) p) q := by
  have hN : t.val < 256 := lt_of_lt_of_eq t.isLt N_0
  refine (summed_apply ((outsAt0 m c t.val t.isLt).2.2) (iblk m c 1 t) (iblk m c 2 t) p q).trans ?_
  have ea : (outsAt0 m c t.val t.isLt).2.2 (ix2 p q) = ∑ k : Fin 8, shards m c (ix3 k (tileRow (t.val / 8) p) q) := by
    rw [acc_apply m c t.val t.isLt p q, h1]
    exact runningSum_last (shards m c) (tileRow (t.val / 8) p) q
  unfold pre
  exact congrArg₂ (· + ·) (congrArg₂ (· + ·) ea (bias_block_apply m c t 0 q))
    (residual_block_apply m c t p q (tileRow (t.val / 8) p) (tileRow_val t.val hN p))

/-- At a tile's last point: that sum, scaled by its row's reciprocal root mean square, times the weight. -/
theorem normed_entry (c : Dev nD) (t : Fin cfg0.N) (h1 : t.val % 8 = 7) (p : Fin 256) (q : Fin 4096) :
    k0_pay4 (F := Ideal) ((outsAt0 m c t.val t.isLt).2.2) (iblk m c 1 t) (iblk m c 2 t) (iblk m c 3 t) (ix2 p q)
      = pre (shards m c) (bias m c) (residual m c) (tileRow (t.val / 8) p) q
        * scale (shards m c) (bias m c) (residual m c) (tileRow (t.val / 8) p) * weight m c (ix1 q) := by
  refine (normed_apply ((outsAt0 m c t.val t.isLt).2.2) (iblk m c 1 t) (iblk m c 2 t) (iblk m c 3 t) p q).trans ?_
  have es : rowScale (k0_pay3 (F := Ideal) ((outsAt0 m c t.val t.isLt).2.2) (iblk m c 1 t) (iblk m c 2 t)) p
      = scale (shards m c) (bias m c) (residual m c) (tileRow (t.val / 8) p) := by
    unfold rowScale scale
    refine congrArg (fun z => Ideal.rsqrt (Ideal.div z nCols + eps)) (Finset.sum_congr rfl fun k _ => ?_)
    rw [summed_entry m c t h1 p k]
  exact congrArg₂ (· * ·) (congrArg₂ (· * ·) (summed_entry m c t h1 p q) es) (weight_block_apply m c t 0 q)

end Cert.KernelIdeal.Accumulator

end
-- ==== Proof.KernelValue.lean ====
/-
  What the kernel leaves in its two result arrays.

  Each result array is cut into 32 row tiles of 256 rows.  A tile's block is written back once, at the tile's
  last grid point (shard 7), and what is written there is the specification's value for those rows: row `p` of tile
  `i` is row `256 * i + p` of the array (`flushed_summed`, `flushed_normed`).  Every row `r` of the array lies in
  tile `r / 256`, so the blocks written back cover the array (`covered_summed`, `covered_normed`), and the arrays
  end holding the specification's two results whole (`final_summed`, `final_normed`, `run`).
-/
import proofs.«167513_j56994216018563_2_alg».proof.Proof.Gen.KernelIdeal.Value
import proofs.«167513_j56994216018563_2_alg».proof.Proof.Accumulator

noncomputable section

open scoped BigOperators

namespace Cert.KernelIdeal.RowValue

open Cert.KernelIdeal Cert.KernelIdeal.Gen Idealize.ShloMosaic Idealize.ShloMosaic.TcCoe Idealize.SL.Sem
open Idealize.ShloMosaic.ValueIdx
open Idealize.ShloMosaic.Pipeline (Dat)
open Cert.RowNorm Cert.KernelIdeal.Blocks Cert.KernelIdeal.Accumulator

variable (m : (ℓ : Loc nD τ sig) → Buf (Elt Ideal) ℓ) (ρ : Dev nD → PrngReg)

/-- The specification's second result on core `c`'s arguments. -/
abbrev summedOf (c : Dev nD) : RowNorm.Grid := summed (shards m c) (bias m c) (residual m c)
/-- The specification's first result on core `c`'s arguments. -/
abbrev normedOf (c : Dev nD) : RowNorm.Grid := normed (shards m c) (bias m c) (residual m c) (weight m c)

/-! ## The second output: the sum before normalisation -/

/-- What a tile's last point writes back to the second output is the specification's rows of that tile. -/
theorem flushed_summed (c : Dev nD) (t : Fin cfg0.N) (hf : (cfg0.win 5).flush t = true) :
    (dats m 0 c).flushed 5 t = ((cfg0.win 5).blk t).view.read (Elt Ideal) (summedOf m c) := by
  have h1 : t.val % 8 = 7 := (flush0_5 t).mp hf
  have hN : t.val < 256 := lt_of_lt_of_eq t.isLt N_0
  obtain ⟨-, -, -, -, -, -, -, -, -, -, -, e0, e1⟩ := idx_facts t
  rw [Value.flushed5, summed_last_point m c t h1]
  funext y
  obtain ⟨p, q, rfl⟩ : ∃ (p : Fin 256) (q : Fin 4096), y = ix2 p q := ⟨y 0, y 1, eq_ix2 y⟩
  rw [View.read_apply]
  refine (summed_entry m c t h1 p q).trans ?_
  show pre (shards m c) (bias m c) (residual m c) (tileRow (t.val / 8) p) q
    = pre (shards m c) (bias m c) (residual m c) ((((cfg0.win 5).blk t).view.emb (ix2 p q)) 0) ((((cfg0.win 5).blk t).view.emb (ix2 p q)) 1)
  refine congrArg₂ (pre (shards m c) (bias m c) (residual m c)) (Fin.ext ?_) (Fin.ext ?_)
  · show (tileRow (t.val / 8) p).val = win0_5.index t (0 : Fin 2) * 256 + 1 * p.val
    rw [tileRow_val t.val hN p]; omega
  · show q.val = win0_5.index t (1 : Fin 2) * 4096 + 1 * q.val
    omega

/-- An index of the second output is in point `t`'s block iff each coordinate is in the block's range. -/
theorem mem_blk_summed (t : Fin cfg0.N) (i : S8192x4096.Idx) :
    i ∈ ((cfg0.win 5).blk t).view.set ↔ ∀ a : Fin 2, win0_5.index t a * S256x4096.size a ≤ (i a).val
      ∧ (i a).val < win0_5.index t a * S256x4096.size a + S256x4096.size a := by
  show i ∈ ((View.whole main_v0_1).slice (win0_5.rect t)).set ↔ _
  rw [View.set_slice_whole, Rect.mem_set_unit]
  exact Iff.rfl

/-- Every entry of the second output is in the block some tile's last point writes back: row `r` in tile `r / 256`. -/
theorem covered_summed (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hb : 8 * ((i 0).val / 256) + 7 < cfg0.N := lt_of_lt_of_eq (by omega : 8 * ((i 0).val / 256) + 7 < 256) N_0.symm
  refine ⟨⟨8 * ((i 0).val / 256) + 7, hb⟩, (flush0_5 _).mpr (by show (8 * ((i 0).val / 256) + 7) % 8 = 7; omega), ?_⟩
  obtain ⟨-, -, -, -, -, -, -, -, -, -, -, e0, e1⟩ := idx_facts ⟨8 * ((i 0).val / 256) + 7, hb⟩
  have e0' : win0_5.index ⟨8 * ((i 0).val / 256) + 7, hb⟩ (0 : Fin 2) = (8 * ((i 0).val / 256) + 7) / 8 := e0
  rw [mem_blk_summed]
  intro a
  match a with
  | ⟨0, _⟩ =>
    show win0_5.index ⟨8 * ((i 0).val / 256) + 7, hb⟩ (0 : Fin 2) * 256 ≤ (i 0).val
      ∧ (i 0).val < win0_5.index ⟨8 * ((i 0).val / 256) + 7, hb⟩ (0 : Fin 2) * 256 + 256
    rw [e0']; omega
  | ⟨1, _⟩ =>
    show win0_5.index ⟨8 * ((i 0).val / 256) + 7, hb⟩ (1 : Fin 2) * 4096 ≤ (i 1).val
      ∧ (i 1).val < win0_5.index ⟨8 * ((i 0).val / 256) + 7, hb⟩ (1 : Fin 2) * 4096 + 4096
    rw [e1]; omega

/-- So the second output ends holding the specification's second result. -/
theorem final_summed (c : Dev nD) : (dats m 0 c).arrAt 5 cfg0.N = summedOf m c :=
  (dats m 0 c).arrAt_eq_of_cover 5 (summedOf m c) (flushed_summed m c) covered_summed

/-! ## The first output: the normalised sum -/

/-- What a tile's last point writes back to the first output is the specification's rows of that tile. -/
theorem flushed_normed (c : Dev nD) (t : Fin cfg0.N) (hf : (cfg0.win 4).flush t = true) :
    (dats m 0 c).flushed 4 t = ((cfg0.win 4).blk t).view.read (Elt Ideal) (normedOf m c) := by
  have h1 : t.val % 8 = 7 := (flush0_4 t).mp hf
  have hN : t.val < 256 := lt_of_lt_of_eq t.isLt N_0
  obtain ⟨-, -, -, -, -, -, -, -, -, e0, e1, -⟩ := idx_facts t
  rw [Value.flushed4, normed_last_point m c t h1]
  funext y
  obtain ⟨p, q, rfl⟩ : ∃ (p : Fin 256) (q : Fin 4096), y = ix2 p q := ⟨y 0, y 1, eq_ix2 y⟩
  rw [View.read_apply]
  refine (normed_entry m c t h1 p q).trans ?_
  have er : tileRow (t.val / 8) p = (((cfg0.win 4).blk t).view.emb (ix2 p q)) 0 := Fin.ext (by
    show (tileRow (t.val / 8) p).val = win0_4.index t (0 : Fin 2) * 256 + 1 * p.val
    rw [tileRow_val t.val hN p]; omega)
  have ec : q = (((cfg0.win 4).blk t).view.emb (ix2 p q)) 1 := Fin.ext (by
    show q.val = win0_4.index t (1 : Fin 2) * 4096 + 1 * q.val
    omega)
  show pre (shards m c) (bias m c) (residual m c) (tileRow (t.val / 8) p) q
      * scale (shards m c) (bias m c) (residual m c) (tileRow (t.val / 8) p) * weight m c (ix1 q)
    = pre (shards m c) (bias m c) (residual m c) ((((cfg0.win 4).blk t).view.emb (ix2 p q)) 0) ((((cfg0.win 4).blk t).view.emb (ix2 p q)) 1)
      * scale (shards m c) (bias m c) (residual m c) ((((cfg0.win 4).blk t).view.emb (ix2 p q)) 0)
      * weight m c (ix1 ((((cfg0.win 4).blk t).view.emb (ix2 p q)) 1))
  rw [← er, ← ec]

/-- An index of the first output is in point `t`'s block iff each coordinate is in the block's range. -/
theorem mem_blk_normed (t : Fin cfg0.N) (i : S8192x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v0_0).slice (win0_4.rect t)).set ↔ _
  rw [View.set_slice_whole, Rect.mem_set_unit]
  exact Iff.rfl

/-- Every entry of the first output is in the block some tile's last point writes back. -/
theorem covered_normed (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hb : 8 * ((i 0).val / 256) + 7 < cfg0.N := lt_of_lt_of_eq (by omega : 8 * ((i 0).val / 256) + 7 < 256) N_0.symm
  refine ⟨⟨8 * ((i 0).val / 256) + 7, hb⟩, (flush0_4 _).mpr (by show (8 * ((i 0).val / 256) + 7) % 8 = 7; omega), ?_⟩
  obtain ⟨-, -, -, -, -, -, -, -, -, e0, e1, -⟩ := idx_facts ⟨8 * ((i 0).val / 256) + 7, hb⟩
  have e0' : win0_4.index ⟨8 * ((i 0).val / 256) + 7, hb⟩ (0 : Fin 2) = (8 * ((i 0).val / 256) + 7) / 8 := e0
  rw [mem_blk_normed]
  intro a
  match a with
  | ⟨0, _⟩ =>
    show win0_4.index ⟨8 * ((i 0).val / 256) + 7, hb⟩ (0 : Fin 2) * 256 ≤ (i 0).val
      ∧ (i 0).val < win0_4.index ⟨8 * ((i 0).val / 256) + 7, hb⟩ (0 : Fin 2) * 256 + 256
    rw [e0']; omega
  | ⟨1, _⟩ =>
    show win0_4.index ⟨8 * ((i 0).val / 256) + 7, hb⟩ (1 : Fin 2) * 4096 ≤ (i 1).val
      ∧ (i 1).val < win0_4.index ⟨8 * ((i 0).val / 256) + 7, hb⟩ (1 : Fin 2) * 4096 + 4096
    rw [e1]; omega

/-- So the first output ends holding the specification's first result. -/
theorem final_normed (c : Dev nD) : (dats m 0 c).arrAt 4 cfg0.N = normedOf m c :=
  (dats m 0 c).arrAt_eq_of_cover 4 (normedOf m c) (flushed_normed m c) covered_normed

/-! ## The run, read -/

/-- Every weakly fair execution of the kernel's program terminates with the two result arrays at the specification's
    two results of the argument arrays, and the arguments unchanged. -/
theorem run : θ_run defs (onTc (τ := τ) (main (F := Ideal))) ⟨m, fun _ => 0, ρ⟩ fun r => ∀ c : Dev nD,
      r.2.mem ((c : Thread nD τ).loc main_v0_0) = normedOf m c
      ∧ r.2.mem ((c : Thread nD τ).loc main_v0_1) = summedOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_normed m c), (h c).2.1.trans (final_summed m c), (h c).2.2⟩)
    (Value.run_blocks m ρ)

end Cert.KernelIdeal.RowValue

end
-- ==== Proof.ReferenceValue.lean ====
/-
  The reference computes the specification.

  Read one entry `(r, c)` at a time, the reference's second result is zero plus the sum over the shard axis of the
  shards at `(r, c)`, plus the bias spread over the rows, plus the residual: `pre r c`, since zero plus a sum is
  the sum.  Its first result multiplies that by the reciprocal root of (zero plus the sum over the columns of the
  squares, viewed as a column, divided by 4096, plus the stabiliser), spread over the columns, and by the weight
  spread over the rows: `pre r c * scale r * weight c`.  Each layout step only re-indexes, and the index it reads
  is found by computing with the literal shapes.
-/
import proofs.«167513_j56994216018563_2_alg».proof.Proof.Gen.ReferenceIdeal.Read
import proofs.«167513_j56994216018563_2_alg».proof.Proof.RowNorm

noncomputable section

open scoped BigOperators

namespace Cert.ReferenceIdeal.RefValue

open Cert.ReferenceIdeal Cert.ReferenceIdeal.Read Idealize.ShloMosaic Idealize.ShloMosaic.ValueIdx Cert.RowNorm

/-- The reduced index with shard `k` put back is `(k, r, c)`. -/
theorem shard_idx (r : Fin 8192) (c : Fin 4096) (k : Fin 8) : idx_main_v0 (ix2 r c) k = ix3 k r c :=
  funext fun a => Fin.ext (by match a with | ⟨0, _⟩ => rfl | ⟨1, _⟩ => rfl | ⟨2, _⟩ => rfl)

/-- The bias, spread over one row and then over all rows, is read at the column. -/
theorem bias_idx (r : Fin 8192) (c : Fin 4096) : idx_main_v1 (idx_main_v2 (ix2 r c)) = ix1 c :=
  funext fun a => Fin.ext (by match a with | ⟨0, _⟩ => rfl)

/-- The weight likewise. -/
theorem weight_idx (r : Fin 8192) (c : Fin 4096) : idx_main_v15 (idx_main_v16 (ix2 r c)) = ix1 c :=
  funext fun a => Fin.ext (by match a with | ⟨0, _⟩ => rfl)

/-- The row sum, viewed as a column and spread over the columns, is read at `(r, k)` for column `k` of the sum. -/
theorem row_idx (r : Fin 8192) (c : Fin 4096) (k : Fin 4096) :
    idx_main_v6 (idx_main_v7 (idx_main_v13 (ix2 r c))) k = ix2 r k :=
  funext fun a => Fin.ext (by match a with | ⟨0, _⟩ => rfl | ⟨1, _⟩ => rfl)

/-- The reference's second result is the sum before normalisation. -/
theorem summed_eq (X : Shards) (B : Cols) (R : Grid) : val_main_v4 (F := Ideal) X B R = summed X B R := by
  funext i
  obtain ⟨r, c, rfl⟩ : ∃ (r : Fin 8192) (c : Fin 4096), i = ix2 r c := ⟨i 0, i 1, eq_ix2 i⟩
  rw [val_main_v4_apply, val_main_v3_apply, val_main_v0_apply, val_main_v2_apply, val_main_v1_apply, val_main_cst_apply]
  simp only [shard_idx, bias_idx, Ideal.addf_def, Ideal.ofBits_def, Ideal.ofBits_zero_f32, zero_add]
  rfl

/-- The reference's first result is the normalised sum. -/
theorem normed_eq (X : Shards) (B : Cols) (R : Grid) (W : Cols) : val_main_v17 (F := Ideal) X B R W = normed X B R W := by
  funext i
  obtain ⟨r, c, rfl⟩ : ∃ (r : Fin 8192) (c : Fin 4096), i = ix2 r c := ⟨i 0, i 1, eq_ix2 i⟩
  rw [val_main_v17_apply, val_main_v14_apply, val_main_v16_apply, val_main_v15_apply, val_main_v13_apply,
    val_main_v12_apply, val_main_v11_apply, val_main_v9_apply, val_main_v10_apply, val_main_cst_2_apply,
    val_main_v7_apply, val_main_v8_apply, val_main_cst_1_apply, val_main_v6_apply, val_main_cst_0_apply]
  simp only [val_main_v5_apply, row_idx, weight_idx, summed_eq, Ideal.mulf_def, Ideal.addf_def, Ideal.hostDivf_def,
    Ideal.hostUnary_rsqrt_def, Ideal.ofBits_def, Ideal.ofBits_zero_f32, zero_add]
  rfl

end Cert.ReferenceIdeal.RefValue

end
-- ==== Proof.lean ====
/-
  The kernel and its reference compute the same two arrays over the extended reals.

  Both take eight shards `X k r c` of a [8192, 4096] array, a bias `B c`, a residual `R r c` and a weight
  `W c`, and return

    second result  r c  =  pre r c                       where  pre r c = (sum over k of X k r c) + B c + R r c
    first result   r c  =  pre r c * scale r * W c       where  scale r = rsqrt ((sum over c of pre r c ^ 2) / 4096 + eps).

  The reference forms the shard sum in one reduction and then applies the remaining steps to whole arrays.  The kernel
  walks a grid of 32 row tiles by 8 shards: within a tile it keeps an accumulator that is reset to zero at shard 0 and
  gains one shard's rows per grid point, and at shard 7 it adds bias and residual, takes each row's mean square, and
  writes the tile's 256 rows of both results.  The accumulator after shard `j` is the sum of shards `0 .. j`, by
  induction along the tile; addition of extended reals is associative and commutative, so after shard 7 this is the
  reference's sum over all shards, whatever the order and with infinite entries allowed.  Every later step is the same
  operation on the same numbers on both sides (the same 4096, the same stabiliser, one reciprocal square root), so no
  entry needs to be finite and the precondition is never opened.  The 32 tiles' rows cover each result array.

  Nothing in the kernel's text was rewritten when it was read over the extended reals, so that conjunct is `True`;
  each program runs to completion without touching its arguments.
-/
import proofs.«167513_j56994216018563_2_alg».proof.Defs
import proofs.«167513_j56994216018563_2_alg».proof.Proof.Gen.Kernel
import proofs.«167513_j56994216018563_2_alg».proof.Proof.Gen.Kernel.Skeleton
import proofs.«167513_j56994216018563_2_alg».proof.Proof.Gen.Kernel.Launch
import proofs.«167513_j56994216018563_2_alg».proof.Proof.Gen.Kernel.Points
import proofs.«167513_j56994216018563_2_alg».proof.Proof.Gen.Kernel.Frame
import proofs.«167513_j56994216018563_2_alg».proof.Proof.Gen.KernelIdeal
import proofs.«167513_j56994216018563_2_alg».proof.Proof.Gen.KernelIdeal.Skeleton
import proofs.«167513_j56994216018563_2_alg».proof.Proof.Gen.KernelIdeal.Launch
import proofs.«167513_j56994216018563_2_alg».proof.Proof.Gen.KernelIdeal.Points
import proofs.«167513_j56994216018563_2_alg».proof.Proof.Gen.KernelIdeal.Frame
import proofs.«167513_j56994216018563_2_alg».proof.Proof.Gen.ReferenceIdeal
import proofs.«167513_j56994216018563_2_alg».proof.Proof.Gen.KernelIdeal.Value
import proofs.«167513_j56994216018563_2_alg».proof.Proof.Gen.ReferenceIdeal.Run
import proofs.«167513_j56994216018563_2_alg».proof.Proof.Gen.ReferenceIdeal.Read
import proofs.«167513_j56994216018563_2_alg».proof.Proof.Gen.Pre_finite_inputs
import proofs.«167513_j56994216018563_2_alg».proof.Proof.KernelValue
import proofs.«167513_j56994216018563_2_alg».proof.Proof.ReferenceValue
import Idealize.ShloMosaic.Adequacy
import Idealize.ShloMosaic.Init

noncomputable section

namespace Cert.Proof

open Idealize.ShloMosaic Idealize.SL.Sem

/-- The kernel as printed runs to completion and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says about the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the kernel over the extended reals rewrote none of its operations. -/
theorem preserves : Cert.preserves_Kernel_KernelIdeal := trivial

/-- From memories that agree on the arguments, the kernel's two result arrays end at the specification's two results
    of its arguments, and the reference's two result stages are the specification's two results of its arguments: the
    same arrays. -/
theorem algebraic : Cert.algebraic_KernelIdeal_ReferenceIdeal := by
  intro m ρ m' ρ' _ hagree
  refine ⟨fun c => Cert.KernelIdeal.RowValue.normedOf m c, fun c => Cert.KernelIdeal.RowValue.summedOf m c,
    Cert.KernelIdeal.RowValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq, Cert.ReferenceIdeal.RefValue.normed_eq, (hagree c).1, (hagree c).2.1,
      (hagree c).2.2.1, (hagree c).2.2.2]
  · rw [Cert.ReferenceIdeal.Read.val_main_v4_eq, Cert.ReferenceIdeal.RefValue.summed_eq, (hagree c).1, (hagree c).2.1,
      (hagree c).2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
